-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S2x8x128 : Shape := ⟨3, ![2, 8, 128]⟩
abbrev S16384x128 : Shape := ⟨2, ![16384, 128]⟩
abbrev S1x8x128 : Shape := ⟨3, ![1, 8, 128]⟩
abbrev S8x128 : Shape := ⟨2, ![8, 128]⟩
abbrev S2048x128 : Shape := ⟨2, ![2048, 128]⟩
abbrev S256x8x128 : Shape := ⟨3, ![256, 8, 128]⟩

abbrev nBuf : Space → Nat
  | .hbm => 52
  | .vmem => 8
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S128, .i32⟩
  | .hbm, ⟨5, _⟩ => ⟨S128x1, .i32⟩
  | .hbm, ⟨6, _⟩ => ⟨S_, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x1, .i32⟩
  | .hbm, ⟨11, _⟩ => ⟨S_, .i32⟩
  | .hbm, ⟨12, _⟩ => ⟨S128x1, .i32⟩
  | .hbm, ⟨13, _⟩ => ⟨S128x1, .i1⟩
  | .hbm, ⟨14, _⟩ => ⟨S128x1, .i32⟩
  | .hbm, ⟨15, _⟩ => ⟨S128x1, .i32⟩
  | .hbm, ⟨16, _⟩ => ⟨S_, .i32⟩
  | .hbm, ⟨17, _⟩ => ⟨S128x1, .i32⟩
  | .hbm, ⟨18, _⟩ => ⟨S128x1, .i1⟩
  | .hbm, ⟨19, _⟩ => ⟨S128x1, .i1⟩
  | .hbm, ⟨20, _⟩ => ⟨S_, .i32⟩
  | .hbm, ⟨21, _⟩ => ⟨S128x1, .i32⟩
  | .hbm, ⟨22, _⟩ => ⟨S128x1, .i32⟩
  | .hbm, ⟨23, _⟩ => ⟨S128x1, .i32⟩
  | .hbm, ⟨24, _⟩ => ⟨S1x128, .i32⟩
  | .hbm, ⟨25, _⟩ => ⟨S_, .i32⟩
  | .hbm, ⟨26, _⟩ => ⟨S_, .i32⟩
  | .hbm, ⟨27, _⟩ => ⟨S1x128, .i32⟩
  | .hbm, ⟨28, _⟩ => ⟨S1x128, .i32⟩
  | .hbm, ⟨29, _⟩ => ⟨S1x128, .i32⟩
  | .hbm, ⟨30, _⟩ => ⟨S_, .i32⟩
  | .hbm, ⟨31, _⟩ => ⟨S1x128, .i32⟩
  | .hbm, ⟨32, _⟩ => ⟨S1x128, .i1⟩
  | .hbm, ⟨33, _⟩ => ⟨S1x128, .i32⟩
  | .hbm, ⟨34, _⟩ => ⟨S1x128, .i32⟩
  | .hbm, ⟨35, _⟩ => ⟨S_, .i32⟩
  | .hbm, ⟨36, _⟩ => ⟨S1x128, .i32⟩
  | .hbm, ⟨37, _⟩ => ⟨S1x128, .i1⟩
  | .hbm, ⟨38, _⟩ => ⟨S1x128, .i1⟩
  | .hbm, ⟨39, _⟩ => ⟨S_, .i32⟩
  | .hbm, ⟨40, _⟩ => ⟨S1x128, .i32⟩
  | .hbm, ⟨41, _⟩ => ⟨S1x128, .i32⟩
  | .hbm, ⟨42, _⟩ => ⟨S1x128, .i32⟩
  | .hbm, ⟨43, _⟩ => ⟨S128x128, .i32⟩
  | .hbm, ⟨44, _⟩ => ⟨S128x128, .i32⟩
  | .hbm, ⟨45, _⟩ => ⟨S128x128, .i1⟩
  | .hbm, ⟨46, _⟩ => ⟨S128x128, .f32⟩
  | .hbm, ⟨47, _⟩ => ⟨S2x8x128, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S16384x128, .f32⟩
  | .local _ .vmem, ⟨3, _⟩ => ⟨S16384x128, .f32⟩
  | .local _ .vmem, ⟨4, _⟩ => ⟨S128x128, .f32⟩
  | .local _ .vmem, ⟨5, _⟩ => ⟨S1x8x128, .f32⟩
  | .local _ .vmem, ⟨6, _⟩ => ⟨S1x8x128, .f32⟩
  | .local _ .vmem, ⟨7, _⟩ => ⟨S8x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_cst : Ref sig .tc := ⟨.hbm, 48, rfl⟩
abbrev main_v12 : Ref sig .tc := ⟨.hbm, 49, rfl⟩
abbrev main_cst_1 : Ref sig .tc := ⟨.hbm, 50, rfl⟩
abbrev main_v13 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg7 : BitVec 32 := Scf.iv c0_i32_1 c1_i32 k0_t1
  let c1_i32_4 : BitVec 32 := 1#32
  let v7 : BitVec 32 := Scalar.muli arg7 c1_i32_4
  let v8 : BitVec 32 := Scalar.addi c0_i32_5 v7
  let c2048_i32 : BitVec 32 := 2048#32
  let v9 : BitVec 32 := Scalar.muli v8 c2048_i32
  v9
def k0_off1 (k0_t1 : Fin k0_t1_loop.trips) : Fin 2 → Nat :=
  let c0_i32_5 : BitVec 32 := 0#32
  let c0_i32_1 : BitVec 32 := 0#32
  let c1_i32 : BitVec 32 := 1#32
  let arg7 : BitVec 32 := Scf.iv c0_i32_1 c1_i32 k0_t1
  let c1_i32_4 : BitVec 32 := 1#32
  let v7 : BitVec 32 := Scalar.muli arg7 c1_i32_4
  let v8 : BitVec 32 := Scalar.addi c0_i32_5 v7
  let c2048_i32 : BitVec 32 := 2048#32
  let v9 : BitVec 32 := Scalar.muli v8 c2048_i32
  let v10 : BitVec 32 := v9
  let v11 : Index := Scalar.indexCast v10
  let c0 : Index := 0#32
  ![v11.toNat, 0]
def k0_cond2 (i : grid0.Coords) : BitVec 1 :=
  let arg1 : BitVec 32 := BitVec.ofNat 32 (i 1).val
  let c7_i32 : BitVec 32 := 7#32
  let v4 : BitVec 1 := Scalar.cmpi .eq arg1 c7_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S33554432_S262144x128 : S33554432.ShapeCasts S262144x128
  bcast_S128_S128x1_0 : S128.BroadcastsInDim S128x1 (![0] : Fin 1 → Fin S128x1.rank)
  bcast_S_S128x1 : S_.BroadcastsInDim S128x1 (![] : Fin 0 → Fin S128x1.rank)
  bcast_S128_S1x128_1 : S128.BroadcastsInDim S1x128 (![1] : Fin 1 → Fin S1x128.rank)
  bcast_S_S1x128 : S_.BroadcastsInDim S1x128 (![] : Fin 0 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  inb_S8x128_S8x128_0_0 : ∀ a, (![0, 0] : Fin 2 → Nat) a + S8x128.size a ≤ S8x128.size a
  h_S8x128 : 0 < S8x128.numel
  shapeCasts_S8x128_S8x128 : S8x128.ShapeCasts S8x128
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S2048x128_S256x8x128 : S2048x128.ShapeCasts S256x8x128
  reduces_S256x8x128_S8x128 : S256x8x128.Reduces [0] S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  reducesTo_S2x8x128_S_d0_1_2 : S2x8x128.ReducesTo [0, 1, 2] S_
  h_S_ : 0 < S_.numel
  dot_S2048x128_S128x128_S2048x128_1_0_0_1_n_n_wf : DotDims.WF S2048x128 S128x128 S2048x128 [1] [0] [0] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S262144x128.size a
  hwx0_1 : ∀ i : grid0.Coords, EltTy.bits .f32 = 32 ∨ (Rect.block (s := S262144x128) S16384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S33554432 : Shape := ⟨1, ![33554432]⟩
abbrev S8388608x4 : Shape := ⟨2, ![8388608, 4]⟩
abbrev S_ : Shape := ⟨0, ![]⟩
abbrev S8388608 : Shape := ⟨1, ![8388608]⟩

abbrev nBuf : Space → Nat
  | .hbm => 15
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S8388608x4, .f32⟩
  | .hbm, ⟨4, _⟩ => ⟨S_, .f32⟩
  | .hbm, ⟨5, _⟩ => ⟨S8388608, .f32⟩
  | .hbm, ⟨6, _⟩ => ⟨S8388608, .f32⟩
  | .hbm, ⟨7, _⟩ => ⟨S_, .f32⟩
  | .hbm, ⟨8, _⟩ => ⟨S8388608, .f32⟩
  | .hbm, ⟨9, _⟩ => ⟨S8388608, .f32⟩
  | .hbm, ⟨10, _⟩ => ⟨S8388608, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  shapeCasts_S33554432_S8388608x4 : S33554432.ShapeCasts S8388608x4
  reducesTo_S8388608x4_S8388608_d1 : S8388608x4.ReducesTo [1] S8388608
  h_S_ : 0 < S_.numel
  bcast_S_S8388608 : S_.BroadcastsInDim S8388608 (![] : Fin 0 → Fin S8388608.rank)
  reducesTo_S8388608_S_d0 : S8388608.ReducesTo [0] S_

variable [Facts₀]

class Facts : Prop extends Facts₀ where

variable [Facts]
-- ==== Proof.SegSpec.lean ====
/-
  The quantity both programs compute, stated once over the extended reals.

  Two arrays x, y of 33554432 numbers are multiplied entry by entry; the products are cut into 8388608 consecutive
  groups of four; a group's LOSS is | z² − 1 | for the sum z of its four products; the result is the mean of the
  losses. The reference adds the 8388608 losses and divides by 8388608. The kernel lays the products out in rows of
  128 (32 groups to a row), multiplies each row by the 128 × 128 matrix whose entry (k, l) is 1 when k and l lie in
  the same group of four and 0 otherwise — so that lane l of the product row holds the sum of the group l belongs to,
  every group's sum appearing in its four lanes —, takes the loss lane by lane, adds all 33554432 lanes' losses and
  divides by 33554432: every group counted four times, the divisor four times larger.

  Everything is stated over streams indexed by the naturals so that the re-bracketings of the sums are sums over
  ranges of naturals; an absolute value is the maximum of a number and its negative, as the float operation reads on
  the extended reals.
-/
import Idealize.ShloMosaic.PureOps.Ideal
import Idealize.ShloMosaic.Lib.ValueIdx

noncomputable section

namespace Cert.SegLoss

open Idealize.ShloMosaic Idealize.ShloMosaic.ValueIdx
open scoped BigOperators

/-- The absolute value on the extended reals: the larger of a number and its negative. -/
def absE (x : EReal) : EReal := max x (-x)

/-- A group's loss from the sum z of its four products: | z² − 1 |, the one being the float word 1.0. -/
def dev (z : EReal) : EReal := absE (z * z - Ideal.ofBits .f32 0x3F800000#32)

/-- The sum of the four consecutive terms of a stream that make up group s. -/
def seg (P : ℕ → EReal) (s : ℕ) : EReal := ∑ k ∈ Finset.range 4, P (s * 4 + k)

/-- Group s's loss. -/
def loss (P : ℕ → EReal) (s : ℕ) : EReal := dev (seg P s)

/-- The sum of the losses of the 8388608 groups. -/
def refTotal (P : ℕ → EReal) : EReal := ∑ s ∈ Finset.range 8388608, loss P s

/-- The sum over all 33554432 positions of the loss of the group the position lies in. -/
def laneTotal (P : ℕ → EReal) : EReal := ∑ n ∈ Finset.range 33554432, loss P (n / 4)

/-- Entry (k, l) of the grouping matrix: 1 when k and l lie in the same group of four, else 0. -/
def grp (k l : ℕ) : EReal := if k / 4 = l / 4 then 1 else 0

/-- Lane l of row r after the grouping product and the loss: the loss of the sum over the row's 128 positions of the
    product stream weighted by column l of the grouping matrix. -/
def entry (P : ℕ → EReal) (r l : ℕ) : EReal := dev (∑ k ∈ Finset.range 128, P (r * 128 + k) * grp k l)

/-- What one half's 8 × 128 accumulator holds at (s8, l) after n chunks of 2048 rows: half c's rows are
    c·131072 … c·131072 + 131071, chunk j of the half holds rows (c·64 + j)·2048 …, and row q·8 + s8 of a chunk is
    added into sublane s8. -/
def acc (P : ℕ → EReal) (c n s8 l : ℕ) : EReal :=
  ∑ j ∈ Finset.range n, ∑ q ∈ Finset.range 256, entry P ((((c * 64 + j) * 256 + q) * 8) + s8) l

/-- An array of 33554432 numbers as a stream (zero past its end). -/
def at1 (x : (⟨1, ![33554432]⟩ : Shape).Idx → EReal) (n : ℕ) : EReal :=
  if h : n < 33554432 then x (ix1 ⟨n, h⟩) else 0

/-- The stream of entrywise products of two arrays. -/
def stream (x y : (⟨1, ![33554432]⟩ : Shape).Idx → EReal) (n : ℕ) : EReal := at1 x n * at1 y n

end Cert.SegLoss

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.LibMergeRows.lean ====
/-
  General lemmas: small layout operations read at an index written with `ix1` / `ix2` / `ix3`, over variable extents.

  * the two leading axes of an `[a, b, c]` array merged into one axis of `r = a · b` rows, and an `[r, c]` array split
    back into `[a, b, c]`: row `p · b + q` of the merged array is row `(p, q)` of the split one (the row-major position
    is kept), so neither direction needs a quotient or a remainder;
  * a column `[a, 1]` re-laid as a row `[1, a]`;
  * a one-entry array `[1, 1]` spread over `[a, b]`, and a rank-zero array cast to `[1, 1]`;
  * a rank-zero array spread over any shape by a `broadcast_in_dim` with no dimensions.
  Nothing here mentions a program: the extents are variables and the shape evidence is a hypothesis.
-/
import Idealize.ShloMosaic.Lib.Pipeline.Value
import Idealize.ShloMosaic.Lib.ValueIdx
import Idealize.ShloMosaic.Lib.ValueLayout

namespace Cert.LibMergeRows

open Idealize.ShloMosaic Idealize.ShloMosaic.ValueIdx

variable {α : Type}

/-- Row `(p, q)` of an `[a, b, ·]` array sits at row `p · b + q` of the array with the two leading axes merged. -/
def mergeIdx {a b r : ℕ} (hr : r = a * b) (p : Fin a) (q : Fin b) : Fin r :=
  ⟨p.val * b + q.val, by
    subst hr
    exact Nat.lt_of_lt_of_le (Nat.add_lt_add_left q.isLt _)
      (by rw [← Nat.succ_mul]; exact Nat.mul_le_mul_right _ p.isLt)⟩

theorem mergeIdx_val {a b r : ℕ} (hr : r = a * b) (p : Fin a) (q : Fin b) : (mergeIdx hr p q).val = p.val * b + q.val := rfl

/-- An `[a, b, c]` array with its two leading axes merged reads, at row `p · b + q`, the operand's row `(p, q)`. -/
theorem shapeCast_abc_rc_apply {a b c r : ℕ} (x : (⟨3, ![a, b, c]⟩ : Shape).Idx → α)
    (h : (⟨3, ![a, b, c]⟩ : Shape).ShapeCasts ⟨2, ![r, c]⟩) (hr : r = a * b) (p : Fin a) (q : Fin b) (k : Fin c) :
    shapeCast ⟨2, ![r, c]⟩ x h (ix2 (mergeIdx hr p q) k) = x (ix3 p q k) :=
  shapeCast_apply x h _ _ (by
    rw [Shape.rowMajor_val_three, Shape.rowMajor_val_two]
    rfl)

/-- An `[r, c]` array with its leading axis split into `a` groups of `b` rows reads, at `(p, q)`, the operand's row
    `p · b + q`. -/
theorem shapeCast_rc_abc_apply {a b c r : ℕ} (y : (⟨2, ![r, c]⟩ : Shape).Idx → α)
    (h : (⟨2, ![r, c]⟩ : Shape).ShapeCasts ⟨3, ![a, b, c]⟩) (hr : r = a * b) (p : Fin a) (q : Fin b) (k : Fin c) :
    shapeCast ⟨3, ![a, b, c]⟩ y h (ix3 p q k) = y (ix2 (mergeIdx hr p q) k) :=
  shapeCast_apply y h _ _ (by
    rw [Shape.rowMajor_val_three, Shape.rowMajor_val_two]
    rfl)

/-- A column `[a, 1]` re-laid as a row `[1, a]` reads, at `(u, p)`, the column's entry `p`. -/
theorem shapeCast_a1_1a_apply {a : ℕ} (x : (⟨2, ![a, 1]⟩ : Shape).Idx → α)
    (h : (⟨2, ![a, 1]⟩ : Shape).ShapeCasts ⟨2, ![1, a]⟩) (u : Fin 1) (p : Fin a) :
    shapeCast ⟨2, ![1, a]⟩ x h (ix2 u p) = x (ix2 p (0 : Fin 1)) :=
  shapeCast_apply x h _ _ (by
    have hu : u.val = 0 := by omega
    rw [Shape.rowMajor_val_two, Shape.rowMajor_val_two]
    show p.val * 1 + 0 = u.val * a + p.val
    rw [hu, Nat.mul_one, Nat.add_zero, Nat.zero_mul, Nat.zero_add])

/-- A column `[a, 1]` flattened to a vector `[a]` reads, at `p`, the column's entry `p`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A one-entry array `[1, 1]` spread over `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- A rank-zero array cast to `[1, 1]` reads its one entry. -/
theorem shapeCast_0_11_apply (x : (⟨0, ![]⟩ : Shape).Idx → α)
    (h : (⟨0, ![]⟩ : Shape).ShapeCasts ⟨2, ![1, 1]⟩) (u v : Fin 1) :
    shapeCast ⟨2, ![1, 1]⟩ x h (ix2 u v) = x ix0 :=
  congrArg x (eq_ix0 _)

/-- A rank-zero array spread over any shape reads its one entry everywhere. -/
theorem broadcastInDim_0_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun ax => ax.elim0)

end Cert.LibMergeRows
-- ==== Proof.ChunkValue.lean ====
/-
  One chunk's update of the accumulator, read entry by entry on the extended reals.

  A chunk is 2048 rows of the two row arrays. Its update of the 8 × 128 accumulator s multiplies the two chunks entry
  by entry, multiplies each product row by the 128 × 128 matrix g, takes | z² − 1 | of every entry z of the result, views
  the 2048 × 128 result as 256 slabs of 8 × 128 (row q·8 + s8 of the chunk is row s8 of slab q) and adds the 256 slabs
  into s. So entry (s8, l) of the updated accumulator is s (s8, l) plus the sum over the slabs q of the loss of
  ∑ₖ x (q·8 + s8, k) · y (q·8 + s8, k) · g (k, l).
-/
import proofs.«159344_j59270548684945_2_alg».proof.Proof.Gen.KernelIdeal.Skeleton
import proofs.«159344_j59270548684945_2_alg».proof.Proof.SegSpec
import proofs.«159344_j59270548684945_2_alg».proof.Proof.LibAffine
import proofs.«159344_j59270548684945_2_alg».proof.Proof.LibPlainDot
import proofs.«159344_j59270548684945_2_alg».proof.Proof.LibMergeRows
import Idealize.ShloMosaic.Lib.ValueIdx
import Idealize.ShloMosaic.Lib.Pipeline.Value
import Idealize.ShloMosaic.PureOps.Ideal.Laws

noncomputable section

namespace Cert.KernelIdeal.Chunk

open Idealize.ShloMosaic Idealize.ShloMosaic.ValueIdx Idealize.SL.Sem
open Cert.KernelIdeal Cert.KernelIdeal.Gen Cert.LibMergeRows
open scoped BigOperators

/-- The grouping product's dimension record, under a short name. -/
abbrev DD : DotDims S2048x128 S128x128 S2048x128 := dot_S2048x128_S128x128_S2048x128_1_0_0_1_n_n

/-- Entry (r, l) of the product of the entrywise product of two chunks with the matrix. -/
theorem grouped_ix2 (a b : FVec Ideal S2048x128 .f32) (g : FVec Ideal S128x128 .f32) (r : Fin 2048) (l : Fin 128) :
    FloatOps.matmul DD none (mulf a b) g (constant S2048x128 .f32 0x00000000#32) (ix2 r l)
      = ∑ k : Fin 128, a (ix2 r k) * b (ix2 r k) * g (ix2 k l) :=
  (Cert.LibAffine.coreDot_ix2 DD (Cert.LibPlainDot.contr_rank DD rfl) (Cert.LibPlainDot.contr_size DD rfl)
    (Cert.LibPlainDot.lhs_row DD rfl rfl) (Cert.LibPlainDot.lhs_col DD rfl) (Cert.LibPlainDot.rhs_row DD rfl rfl)
    (Cert.LibPlainDot.rhs_col DD rfl rfl rfl rfl) none (mulf a b) g r l).trans rfl

/-- The updated accumulator at (s8, l). -/
theorem update_ix2 (a b : FVec Ideal S2048x128 .f32) (g : FVec Ideal S128x128 .f32) (s : FVec Ideal S8x128 .f32)
    (s8 : Fin 8) (l : Fin 128) :
    k0_pay2 (F := Ideal) a b g s (ix2 s8 l)
      = s (ix2 s8 l) + ∑ q : Fin 256, Cert.SegLoss.dev (∑ k : Fin 128,
          a (ix2 (mergeIdx (rfl : 2048 = 256 * 8) q s8) k) * b (ix2 (mergeIdx (rfl : 2048 = 256 * 8) q s8) k) * g (ix2 k l)) := by
  unfold k0_pay2
  simp only [shapeCast_self]
  refine congrArg (s (ix2 s8 l) + ·) ?_
  refine (Ideal.multiReduction_add_single _ (0x00000000#32) reduces_S256x8x128_S8x128 (.inl rfl) rfl (ix2 s8 l)).trans ?_
  refine Finset.sum_congr rfl fun q _ => ?_
  have e : (reduces_S256x8x128_S8x128).lift (ix2 s8 l) q = ix3 q s8 l := funext fun ax => Fin.ext (by
    match ax with
    | ⟨0, _⟩ => rfl
    | ⟨1, _⟩ => rfl
    | ⟨2, _⟩ => rfl)
  refine (congrArg _ e).trans ?_
  refine (shapeCast_rc_abc_apply _ _ (rfl : 2048 = 256 * 8) q s8 l).trans ?_
  refine congrArg Cert.SegLoss.dev ?_
  exact grouped_ix2 a b g _ l

end Cert.KernelIdeal.Chunk

end
-- ==== Proof.ScratchRun.lean ====
/-
  What one grid point of the kernel leaves in its 8 × 128 accumulator, as a function of what it found there.

  A grid point holds a block of 16384 rows of each of the two row arrays and the 128 × 128 grouping matrix. Its body
  walks the block in 8 chunks of 2048 rows; chunk k replaces the accumulator s by the chunk's update of s (the body's
  one pure term, applied to rows 2048k … 2048k + 2047 of both blocks, the matrix and s). So after the 8 chunks the
  accumulator holds the 8-fold iterate `accAfter … 8` of that update, started from what the point found: the zero
  array at the first point of a half (which zero-fills first), the previous point's accumulator elsewhere. At the last
  point of a half the body also copies the accumulator into the output block.
-/
import proofs.«159344_j59270548684945_2_alg».proof.Proof.Gen.KernelIdeal.Frame
import Idealize.ShloMosaic.Lib.Pipeline.Value

set_option maxRecDepth 16384

noncomputable section

namespace Cert.KernelIdeal.Scratch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- Rows 2048k … 2048k + 2047 of a block of 16384 rows. -/
def chunk (x : Vec F S16384x128 .f32) (k : Fin k0_t1_loop.trips) : Vec F S2048x128 .f32 :=
  View.ld x (Rect.unit (s := S16384x128) (k0_off1 k) S2048x128.size (k0_off1_inb k))

/-- The accumulator after the first n chunks of a block, started from g. -/
def accAfter (x0 x1 : Vec F S16384x128 .f32) (x2 : Vec F S128x128 .f32) (g : Vec F S8x128 .f32) : ℕ → Vec F S8x128 .f32
  | 0 => g
  | n + 1 => if h : n < k0_t1_loop.trips then k0_pay2 (chunk x0 ⟨n, h⟩) (chunk x1 ⟨n, h⟩) x2 (accAfter x0 x1 x2 g n)
      else accAfter x0 x1 x2 g n

theorem accAfter_succ (x0 x1 : Vec F S16384x128 .f32) (x2 : Vec F S128x128 .f32) (g : Vec F S8x128 .f32)
    (k : Fin k0_t1_loop.trips) :
    accAfter x0 x1 x2 g (k.val + 1) = k0_pay2 (chunk x0 k) (chunk x1 k) x2 (accAfter x0 x1 x2 g k.val) := by
  rw [accAfter]; exact dif_pos k.isLt

theorem trips_eq : k0_t1_loop.trips = 8 := by decide

/-- One chunk's store: the whole accumulator, at the update of what the chunk found there. -/
theorem tripL_eq (𝒱 : Variants) (bd : Option 𝒱.V) (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1x8x128 .f32) (harg5 : arg5.IsWhole) (arg6 : Memref sig .tc .vmem S8x128 .f32) (harg6 : arg6.IsWhole)
    (X2 : BufTy.Contents (Elt F) arg2.view.ty) (X3 : BufTy.Contents (Elt F) arg3.view.ty) (X4 : BufTy.Contents (Elt F) arg4.view.ty)
    (k : Fin k0_t1_loop.trips) (f : BufTy.Contents (Elt F) arg6.view.ty) :
    tripL_k0_t1 (F := F) 𝒱 c bd i arg2 harg2 arg3 harg3 arg4 harg4 arg5 harg5 arg6 harg6 X2 X3 X4 k f
      = [⟨Rect.unit (s := S8x128) ![0, 0] S8x128.size inb_S8x128_S8x128_0_0,
          k0_pay2 (View.ld (arg2.view.read (Elt F) X2) (Rect.unit (s := S16384x128) (k0_off1 k) S2048x128.size (k0_off1_inb k)))
            (View.ld (arg3.view.read (Elt F) X3) (Rect.unit (s := S16384x128) (k0_off1 k) S2048x128.size (k0_off1_inb k)))
            (View.ld (arg4.view.read (Elt F) X4) (Rect.unit (s := S128x128) ![0, 0] S128x128.size inb_S128x128_S128x128_0_0))
            (View.ld (arg6.view.read (Elt F) f) (Rect.unit (s := S8x128) ![0, 0] S8x128.size inb_S8x128_S8x128_0_0))⟩] := by
  unfold tripL_k0_t1 trip_k0_t1
  rfl

theorem hz2 : (![0, 0] : Fin 2 → Nat) = fun _ => 0 := by
  funext a; match a with | ⟨0, _⟩ => rfl | ⟨1, _⟩ => rfl

/-- After n chunks the accumulator reads the n-fold iterate of the update, started from what it read at entry. -/
theorem read_after_chunks (𝒱 : Variants) (bd : Option 𝒱.V) (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1x8x128 .f32) (harg5 : arg5.IsWhole) (arg6 : Memref sig .tc .vmem S8x128 .f32) (harg6 : arg6.IsWhole)
    (x0 x1 : Vec F S16384x128 .f32) (x2 : Vec F S128x128 .f32) (G : BufTy.Contents (Elt F) arg6.view.ty) :
    ∀ n, n ≤ k0_t1_loop.trips →
      arg6.view.read (Elt F) (arg6.view.writes (Elt F) G
        (pb_k0_t1 (F := F) 𝒱 c bd i arg2 harg2 arg3 harg3 arg4 harg4 arg5 harg5 arg6 harg6 (harg2.unread x0) (harg3.unread x1) (harg4.unread x2) G n))
      = accAfter x0 x1 x2 (arg6.view.read (Elt F) G) n
  | 0, _ => rfl
  | n + 1, hn => by
    have ih := read_after_chunks 𝒱 bd c i arg2 harg2 arg3 harg3 arg4 harg4 arg5 harg5 arg6 harg6 x0 x1 x2 G n (Nat.le_of_succ_le hn)
    have hk : n < k0_t1_loop.trips := hn
    rw [show n + 1 = (⟨n, hk⟩ : Fin k0_t1_loop.trips).val + 1 from rfl, pb_k0_t1_succ, View.writes_append, tripL_eq,
      View.read_writes_eq_canon _ _ _ (fun y => ⟨_, List.mem_singleton_self _, View.mem_set_unit_zero hz2 inb_S8x128_S8x128_0_0 y⟩),
      View.canon_unit_zero hz2, accAfter_succ]
    simp only [harg2.read_unread, harg3.read_unread, harg4.read_unread, View.ld_unit_zero (S := S128x128) hz2,
      View.ld_unit_zero (S := S8x128) hz2]
    rw [ih]
    rfl

/-- A chunk's store is the last store so far into the accumulator: after chunks 0 … k, whatever was stored before
    them, it holds the (k+1)-fold iterate. -/
theorem canon_after_succ (𝒱 : Variants) (bd : Option 𝒱.V) (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1x8x128 .f32) (harg5 : arg5.IsWhole) (arg6 : Memref sig .tc .vmem S8x128 .f32) (harg6 : arg6.IsWhole)
    (x0 x1 : Vec F S16384x128 .f32) (x2 : Vec F S128x128 .f32) (G : BufTy.Contents (Elt F) arg6.view.ty)
    (L : List (View.Piece (Elt F) S8x128 .f32)) (k : Fin k0_t1_loop.trips) :
    View.canon (pb_k0_t1 (F := F) 𝒱 c bd i arg2 harg2 arg3 harg3 arg4 harg4 arg5 harg5 arg6 harg6 (harg2.unread x0) (harg3.unread x1) (harg4.unread x2) G
        (k.val + 1) ++ L)
      = accAfter x0 x1 x2 (arg6.view.read (Elt F) G) (k.val + 1) := by
  have ih := read_after_chunks 𝒱 bd c i arg2 harg2 arg3 harg3 arg4 harg4 arg5 harg5 arg6 harg6 x0 x1 x2 G k.val (Nat.le_of_lt k.isLt)
  rw [pb_k0_t1_succ, tripL_eq, List.append_assoc, List.singleton_append, View.canon_cons_unit_zero hz2, accAfter_succ]
  simp only [harg2.read_unread, harg3.read_unread, harg4.read_unread, View.ld_unit_zero (S := S128x128) hz2,
    View.ld_unit_zero (S := S8x128) hz2]
  rw [ih]
  rfl

/-- After all 8 chunks. -/
theorem canon_after_chunks (𝒱 : Variants) (bd : Option 𝒱.V) (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1x8x128 .f32) (harg5 : arg5.IsWhole) (arg6 : Memref sig .tc .vmem S8x128 .f32) (harg6 : arg6.IsWhole)
    (x0 x1 : Vec F S16384x128 .f32) (x2 : Vec F S128x128 .f32) (G : BufTy.Contents (Elt F) arg6.view.ty)
    (L : List (View.Piece (Elt F) S8x128 .f32)) :
    View.canon (pb_k0_t1 (F := F) 𝒱 c bd i arg2 harg2 arg3 harg3 arg4 harg4 arg5 harg5 arg6 harg6 (harg2.unread x0) (harg3.unread x1) (harg4.unread x2) G
        (Scf.trips (0#32) (Scalar.addi 0#32 8#32) 1#32) ++ L)
      = accAfter x0 x1 x2 (arg6.view.read (Elt F) G) 8 :=
  canon_after_succ 𝒱 bd c i arg2 harg2 arg3 harg3 arg4 harg4 arg5 harg5 arg6 harg6 x0 x1 x2 G L ⟨7, by rw [trips_eq]; decide⟩

end Cert.KernelIdeal.Scratch

end
-- ==== Proof.BlockValue.lean ====
/-
  A whole block's contribution to the accumulator, read entry by entry on the extended reals.

  After the first n of a block's 8 chunks the accumulator at (s8, l) is what the point found there plus, for every chunk
  j < n and every slab q of the chunk, the loss of ∑ₖ x (2048·j + q·8 + s8, k) · y (same row, k) · g (k, l): row q·8 + s8 of
  chunk j is row 2048·j + q·8 + s8 of the block. Blocks are read through total functions of natural-number coordinates
  (zero outside the block) so that the sums are sums over ranges.
-/
import proofs.«159344_j59270548684945_2_alg».proof.Proof.ChunkValue
import proofs.«159344_j59270548684945_2_alg».proof.Proof.ScratchRun

set_option maxRecDepth 16384

noncomputable section

namespace Cert.KernelIdeal.Block

open Idealize.ShloMosaic Idealize.ShloMosaic.ValueIdx Idealize.SL.Sem
open Cert.KernelIdeal Cert.KernelIdeal.Gen Cert.KernelIdeal.Scratch Cert.LibMergeRows
open scoped BigOperators

/-- An [R, 128] array read at natural-number coordinates, zero outside. -/
def rowsOf {R : ℕ} (x : (⟨2, ![R, 128]⟩ : Shape).Idx → EReal) (r k : ℕ) : EReal :=
  if h : r < R ∧ k < 128 then x (ix2 ⟨r, h.1⟩ ⟨k, h.2⟩) else 0

theorem rowsOf_ix2 {R : ℕ} (x : (⟨2, ![R, 128]⟩ : Shape).Idx → EReal) (r : Fin R) (k : Fin 128) :
    x (ix2 r k) = rowsOf x r.val k.val := by
  unfold rowsOf; rw [dif_pos ⟨r.isLt, k.isLt⟩]

/-- The loss of lane l of block row ρ after the grouping product. -/
def laneLoss (x0 x1 : FVec Ideal S16384x128 .f32) (x2 : FVec Ideal S128x128 .f32) (ρ l : ℕ) : EReal :=
  Cert.SegLoss.dev (∑ k ∈ Finset.range 128, rowsOf x0 ρ k * rowsOf x1 ρ k * rowsOf x2 k l)

/-- Row r of chunk j of a block is row 2048·j + r of the block. -/
theorem chunk_ix2 (x : FVec Ideal S16384x128 .f32) (j : Fin k0_t1_loop.trips) (r : Fin 2048) (k : Fin 128) :
    chunk (F := Ideal) x j (ix2 r k) = rowsOf x (2048 * j.val + r.val) k.val := by
  have hj : j.val < 8 := lt_of_lt_of_eq j.isLt trips_eq
  have hr : 2048 * j.val + r.val < 16384 := by have := r.isLt; omega
  rw [← rowsOf_ix2 x ⟨2048 * j.val + r.val, hr⟩ k]
  unfold chunk
  show x ((Rect.unit (s := S16384x128) (k0_off1 j) S2048x128.size (k0_off1_inb j)).emb (ix2 r k)) = _
  refine congrArg x (funext fun a => Fin.ext ?_)
  rw [Rect.emb_apply]
  have e := k0_off1_eq j
  match a with
  | ⟨0, _⟩ => show k0_off1 j 0 + 1 * r.val = 2048 * j.val + r.val; rw [e]; show 2048 * j.val + 1 * r.val = _; omega
  | ⟨1, _⟩ => show k0_off1 j 1 + 1 * k.val = k.val; rw [e]; show 0 + 1 * k.val = _; omega

/-- One chunk's update in these terms. -/
theorem update_rows (x0 x1 : FVec Ideal S16384x128 .f32) (x2 : FVec Ideal S128x128 .f32) (s : FVec Ideal S8x128 .f32)
    (j : Fin k0_t1_loop.trips) (s8 : Fin 8) (l : Fin 128) :
    k0_pay2 (F := Ideal) (chunk x0 j) (chunk x1 j) x2 s (ix2 s8 l)
      = s (ix2 s8 l) + ∑ q ∈ Finset.range 256, laneLoss x0 x1 x2 (2048 * j.val + (q * 8 + s8.val)) l.val := by
  rw [Cert.KernelIdeal.Chunk.update_ix2]
  refine congrArg (s (ix2 s8 l) + ·) ((Finset.sum_congr rfl fun q _ => ?_).trans
    (Finset.sum_range (fun q => laneLoss x0 x1 x2 (2048 * j.val + (q * 8 + s8.val)) l.val)).symm)
  unfold laneLoss
  refine congrArg Cert.SegLoss.dev ((Finset.sum_congr rfl fun k _ => ?_).trans
    (Finset.sum_range (fun k => rowsOf x0 (2048 * j.val + (q.val * 8 + s8.val)) k * rowsOf x1 (2048 * j.val + (q.val * 8 + s8.val)) k * rowsOf x2 k l.val)).symm)
  rw [chunk_ix2, chunk_ix2, rowsOf_ix2 x2 k l]
  rfl

/-- The accumulator after n chunks, entry by entry. -/
theorem accAfter_ix2 (x0 x1 : FVec Ideal S16384x128 .f32) (x2 : FVec Ideal S128x128 .f32) (g : FVec Ideal S8x128 .f32)
    (s8 : Fin 8) (l : Fin 128) : ∀ n, n ≤ k0_t1_loop.trips →
    accAfter (F := Ideal) x0 x1 x2 g n (ix2 s8 l)
      = g (ix2 s8 l) + ∑ j ∈ Finset.range n, ∑ q ∈ Finset.range 256, laneLoss x0 x1 x2 (2048 * j + (q * 8 + s8.val)) l.val
  | 0, _ => by rw [Finset.sum_range_zero, add_zero]; rfl
  | n + 1, hn => by
    have ih := accAfter_ix2 x0 x1 x2 g s8 l n (Nat.le_of_succ_le hn)
    rw [show n + 1 = (⟨n, hn⟩ : Fin k0_t1_loop.trips).val + 1 from rfl, accAfter_succ, update_rows, ih]
    show _ = g (ix2 s8 l) + ∑ j ∈ Finset.range (n + 1), ∑ q ∈ Finset.range 256, laneLoss x0 x1 x2 (2048 * j + (q * 8 + s8.val)) l.val
    rw [Finset.sum_range_succ (fun j => ∑ q ∈ Finset.range 256, laneLoss x0 x1 x2 (2048 * j + (q * 8 + s8.val)) l.val) n, add_assoc]

end Cert.KernelIdeal.Block

end
-- ==== Proof.CaseValue.lean ====
/-
  What each of the kernel body's three control cases leaves, in terms of the block update.

  First point of a half: the accumulator is zero-filled, then the 8 chunks are added: the 8-fold iterate from the zero
  fill. A middle point: the 8-fold iterate from what the point before left. Last point of a half: the same, and the
  output block is the accumulator laid out as a 1 × 8 × 128 block.
-/
import proofs.«159344_j59270548684945_2_alg».proof.Proof.ScratchRun

set_option maxRecDepth 16384

noncomputable section

namespace Cert.KernelIdeal.Scratch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz3 : (![0, 0, 0] : Fin 3 → Nat) = fun _ => 0 := by
  funext a; match a with | ⟨0, _⟩ => rfl | ⟨1, _⟩ => rfl | ⟨2, _⟩ => rfl

/-- A middle point leaves the 8-fold iterate from what it found. -/
theorem sout_B (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : ¬cond0_1 i)
    (x0 x1 : Vec F S16384x128 .f32) (x2 : Vec F S128x128 .f32) (xs0 : Vec F S8x128 .f32) :
    sout0_B_0 c i arg2 harg2 arg3 harg3 arg4 harg4 arg5 harg5 arg6 harg6 hc0 hc1 x0 x1 x2 xs0 = accAfter x0 x1 x2 xs0 8 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  have h := canon_after_chunks Variants.none none c i arg2 harg2 arg3 harg3 arg4 harg4 arg5 harg5 arg6 harg6 x0 x1 x2 (harg6.unread xs0) []
  rw [List.append_nil, harg6.read_unread] at h
  exact h

/-- The last point of a half leaves the same in the accumulator, -/
theorem sout_C (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : cond0_1 i)
    (x0 x1 : Vec F S16384x128 .f32) (x2 : Vec F S128x128 .f32) (xs0 : Vec F S8x128 .f32) :
    sout0_C_0 c i arg2 harg2 arg3 harg3 arg4 harg4 arg5 harg5 arg6 harg6 hc0 hc1 x0 x1 x2 xs0 = accAfter x0 x1 x2 xs0 8 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  have h := canon_after_chunks Variants.none none c i arg2 harg2 arg3 harg3 arg4 harg4 arg5 harg5 arg6 harg6 x0 x1 x2 (harg6.unread xs0) []
  rw [List.append_nil, harg6.read_unread] at h
  exact h

/-- and the accumulator, re-laid as a 1 × 8 × 128 block, in the output block. -/
theorem out_C (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : cond0_1 i)
    (x0 x1 : Vec F S16384x128 .f32) (x2 : Vec F S128x128 .f32) (xs0 : Vec F S8x128 .f32) :
    out0_C_3 c i arg2 harg2 arg3 harg3 arg4 harg4 arg5 harg5 arg6 harg6 hc0 hc1 x0 x1 x2 xs0 = k0_pay3 (accAfter x0 x1 x2 xs0 8) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  rw [View.canon_unit_zero hz3]
  refine congrArg k0_pay3 ?_
  unfold kernelRun0_C.sl.v7
  rw [View.readAt_eq_ld, View.ld_unit_zero (S := S8x128) hz2]
  have h := read_after_chunks Variants.none none c i arg2 harg2 arg3 harg3 arg4 harg4 arg5 harg5 arg6 harg6 x0 x1 x2 (harg6.unread xs0) k0_t1_loop.trips (Nat.le_refl _)
  rw [harg6.read_unread] at h
  exact h.trans (congrArg (accAfter x0 x1 x2 xs0) trips_eq)

/-- The first point of a half leaves the 8-fold iterate from the zero fill. -/
theorem sout_A (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1x8x128 .f32) (harg5 : arg5.IsWhole) (arg6 : Memref sig .tc .vmem S8x128 .f32) (harg6 : arg6.IsWhole) (hc0 : cond0_0 i) (hc1 : ¬cond0_1 i)
    (x0 x1 : Vec F S16384x128 .f32) (x2 : Vec F S128x128 .f32) :
    sout0_A_0 c i arg2 harg2 arg3 harg3 arg4 harg4 arg5 harg5 arg6 harg6 hc0 hc1 x0 x1 x2 = accAfter x0 x1 x2 (k0_pay1 (F := F)) 8 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  rw [canon_after_chunks]
  refine congrArg (fun g => accAfter x0 x1 x2 g 8) ?_
  unfold kernelRun0_A.sl.HS0_1
  rw [View.read_writes_eq_canon _ _ _ (fun y => ⟨_, List.mem_singleton_self _, View.mem_set_unit_zero hz2 inb_S8x128_S8x128_0_0 y⟩),
    View.canon_unit_zero hz2]

end Cert.KernelIdeal.Scratch

end
-- ==== Proof.HostArrays.lean ====
/-
  The arrays the kernel region finds, read at an index.

  Before the region the host reshapes the two argument arrays of 33554432 numbers into 262144 rows of 128 (row r,
  lane k holds entry r · 128 + k), and builds the 128 × 128 grouping matrix: entry (k, l) is 1 when ⌊k / 4⌋ = ⌊l / 4⌋
  and 0 otherwise, the two quotients computed on 32-bit integers as a truncating division corrected downwards when
  the remainder is not zero and the signs of dividend and divisor differ (a floor division), and the comparison's bit
  turned into the number 1 or 0.
-/
import proofs.«159344_j59270548684945_2_alg».proof.Proof.Gen.KernelIdeal.Frame
import proofs.«159344_j59270548684945_2_alg».proof.Proof.SegSpec
import Idealize.ShloMosaic.Lib.ValueLayout
import Idealize.ShloMosaic.Lib.Pipeline.Value
import Idealize.ShloMosaic.Lib.StableHlo.Run

set_option maxRecDepth 16384

noncomputable section

namespace Cert.KernelIdeal.HostArrays

open Cert.KernelIdeal
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (c : Dev nD)

/-! ## The two argument arrays in rows of 128 -/

/-- The first argument array as the region finds it: the launched array cut into rows of 128. -/
theorem rows_eq0 : (Gen.V m c main_v0 : S262144x128.Idx → EReal)
    = shapeCast S262144x128 (m ((c : Thread nD τ).loc main_arg0) : S33554432.Idx → EReal) Gen.shapeCasts_S33554432_S262144x128 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The second argument array as the region finds it: the launched array cut into rows of 128. -/
theorem rows_eq1 : (Gen.V m c main_v1 : S262144x128.Idx → EReal)
    = shapeCast S262144x128 (m ((c : Thread nD τ).loc main_arg1) : S33554432.Idx → EReal) Gen.shapeCasts_S33554432_S262144x128 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- An array of 33554432 numbers cut into rows of 128, read at row r and lane k, is the array's entry r · 128 + k. -/
theorem rows_cast_read (x : S33554432.Idx → EReal) (r : Fin 262144) (k : Fin 128) :
    shapeCast S262144x128 x Gen.shapeCasts_S33554432_S262144x128 (ix2 r k) = Cert.SegLoss.at1 x (r.val * 128 + k.val) := by
  have hr : r.val < 262144 := r.isLt
  have hk : k.val < 128 := k.isLt
  have hn : r.val * 128 + k.val < 33554432 := by omega
  refine (shapeCast_apply x Gen.shapeCasts_S33554432_S262144x128 (ix2 r k) (ix1 ⟨r.val * 128 + k.val, hn⟩) (by
    rw [Shape.rowMajor_val_one, Shape.rowMajor_val_two]
    show r.val * 128 + k.val = r.val * 128 + k.val
    rfl)).trans ?_
  unfold Cert.SegLoss.at1
  rw [dif_pos hn]

/-- Row r, lane k of the first argument's rows is the argument's entry r · 128 + k. -/
theorem rows_read0 (r : Fin 262144) (k : Fin 128) :
    (Gen.V m c main_v0 : S262144x128.Idx → EReal) (ix2 r k)
      = Cert.SegLoss.at1 (m ((c : Thread nD τ).loc main_arg0)) (r.val * 128 + k.val) := by
  rw [rows_eq0]
  exact rows_cast_read _ r k

/-- Row r, lane k of the second argument's rows is the argument's entry r · 128 + k. -/
theorem rows_read1 (r : Fin 262144) (k : Fin 128) :
    (Gen.V m c main_v1 : S262144x128.Idx → EReal) (ix2 r k)
      = Cert.SegLoss.at1 (m ((c : Thread nD τ).loc main_arg1)) (r.val * 128 + k.val) := by
  rw [rows_eq1]
  exact rows_cast_read _ r k

/-! ## The grouping matrix -/

/-- The sign of a 32-bit integer as the host computes it: 0, −1 or 1. -/
def sgn (x : BitVec 32) : BitVec 32 := if x = 0 then 0 else if x.msb then -1 else 1

/-- The floor division of a 32-bit integer by four as the host's chain computes it on one word: the truncating
    quotient, lowered by one when the remainder is not zero and the dividend's sign is not the divisor's. -/
def fdiv4 (x : BitVec 32) : BitVec 32 :=
  Scalar.select
    (IntOp.andi (IntOp.cmpi .ne (sgn x) (sgn 4#32)) (IntOp.cmpi .ne (IntOp.remsi .host x 4#32) 0#32))
    (IntOp.subi (IntOp.divsi .host x 4#32) 1#32)
    (IntOp.divsi .host x 4#32)

/-- On the numbers below 128 the chain is the quotient by four. -/
theorem fdiv4_ofNat : ∀ k : Fin 128, fdiv4 (BitVec.ofNat 32 k.val) = BitVec.ofNat 32 (k.val / 4) := by decide +kernel

/-- The host's floor division by four on a column of 128 integers. -/
def fdivCol (x : IVec S128x1 32) : IVec S128x1 32 :=
  select
    (andi (cmpi .ne (signi x) (broadcastInDim S128x1 ![] Gen.bcast_S_S128x1 (signi (id (constantI S_ 32 4#32)))))
      (cmpi .ne (Host.remsi x (broadcastInDim S128x1 ![] Gen.bcast_S_S128x1 (id (constantI S_ 32 4#32))))
        (broadcastInDim S128x1 ![] Gen.bcast_S_S128x1 (constantI S_ 32 0#32))))
    (subi (Host.divsi x (broadcastInDim S128x1 ![] Gen.bcast_S_S128x1 (id (constantI S_ 32 4#32))))
      (broadcastInDim S128x1 ![] Gen.bcast_S_S128x1 (constantI S_ 32 1#32)))
    (Host.divsi x (broadcastInDim S128x1 ![] Gen.bcast_S_S128x1 (id (constantI S_ 32 4#32))))

/-- The host's floor division by four on a row of 128 integers. -/
def fdivRow (x : IVec S1x128 32) : IVec S1x128 32 :=
  select
    (andi (cmpi .ne (signi x) (broadcastInDim S1x128 ![] Gen.bcast_S_S1x128 (signi (id (constantI S_ 32 4#32)))))
      (cmpi .ne (Host.remsi x (broadcastInDim S1x128 ![] Gen.bcast_S_S1x128 (id (constantI S_ 32 4#32))))
        (broadcastInDim S1x128 ![] Gen.bcast_S_S1x128 (constantI S_ 32 0#32))))
    (subi (Host.divsi x (broadcastInDim S1x128 ![] Gen.bcast_S_S1x128 (id (constantI S_ 32 4#32))))
      (broadcastInDim S1x128 ![] Gen.bcast_S_S1x128 (constantI S_ 32 1#32)))
    (Host.divsi x (broadcastInDim S1x128 ![] Gen.bcast_S_S1x128 (id (constantI S_ 32 4#32))))

/-- Entry by entry the column's floor division is the one-word chain. -/
theorem fdivCol_apply (x : IVec S128x1 32) (i : S128x1.Idx) : fdivCol x i = fdiv4 (x i) := rfl

/-- Entry by entry the row's floor division is the one-word chain. -/
theorem fdivRow_apply (x : IVec S1x128 32) (i : S1x128.Idx) : fdivRow x i = fdiv4 (x i) := rfl

/-- The numbers 0 … 127 down a column. -/
def colIota : IVec S128x1 32 := broadcastInDim S128x1 ![0] Gen.bcast_S128_S128x1_0 (iotaInDim S128 32 0)

/-- The numbers 0 … 127 along a row. -/
def rowIota : IVec S1x128 32 := broadcastInDim S1x128 ![1] Gen.bcast_S128_S1x128_1 (iotaInDim S128 32 0)

/-- The grouping matrix as the host's operations compose it. -/
def groupMatrix : S128x128.Idx → EReal :=
  (uitofp .f32
    (cmpi .eq
      (broadcastInDim S128x128 ![0, 1] Gen.bcast_S128x1_S128x128_0_1 (fdivCol colIota))
      (broadcastInDim S128x128 ![0, 1] Gen.bcast_S1x128_S128x128_0_1 (fdivRow rowIota))) : FVec Ideal S128x128 .f32)

set_option maxHeartbeats 1000000 in
/-- The grouping matrix as the region finds it is that composition. -/
theorem group_eq : (Gen.V m c main_v10 : S128x128.Idx → EReal) = groupMatrix := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

/-- The column 0 … 127 read at row k. -/
theorem colIota_apply (k : Fin 128) : colIota (ix2 k (0 : Fin 1)) = BitVec.ofNat 32 k.val := rfl

/-- The row 0 … 127 read at lane l. -/
theorem rowIota_apply (l : Fin 128) : rowIota (ix2 (0 : Fin 1) l) = BitVec.ofNat 32 l.val := rfl

/-- A column spread over the 128 × 128 matrix: entry (k, l) is the column's entry k. -/
theorem spread_col (y : IVec S128x1 32) (k l : Fin 128) :
    broadcastInDim S128x128 ![0, 1] Gen.bcast_S128x1_S128x128_0_1 y (ix2 k l) = y (ix2 k (0 : Fin 1)) := by
  refine broadcastInDim_apply ![0, 1] Gen.bcast_S128x1_S128x128_0_1 y (ix2 k l) (ix2 k (0 : Fin 1)) ?_
  intro a
  match a with
  | ⟨0, _⟩ => rfl
  | ⟨1, _⟩ => rfl

/-- A row spread over the 128 × 128 matrix: entry (k, l) is the row's entry l. -/
theorem spread_row (y : IVec S1x128 32) (k l : Fin 128) :
    broadcastInDim S128x128 ![0, 1] Gen.bcast_S1x128_S128x128_0_1 y (ix2 k l) = y (ix2 (0 : Fin 1) l) := by
  refine broadcastInDim_apply ![0, 1] Gen.bcast_S1x128_S128x128_0_1 y (ix2 k l) (ix2 (0 : Fin 1) l) ?_
  intro a
  match a with
  | ⟨0, _⟩ => rfl
  | ⟨1, _⟩ => rfl

/-- The column of quotients spread over the matrix: entry (k, l) is ⌊k / 4⌋. -/
theorem colQuot_apply (k l : Fin 128) :
    broadcastInDim S128x128 ![0, 1] Gen.bcast_S128x1_S128x128_0_1 (fdivCol colIota) (ix2 k l) = BitVec.ofNat 32 (k.val / 4) :=
  (spread_col (fdivCol colIota) k l).trans
    ((fdivCol_apply colIota (ix2 k (0 : Fin 1))).trans ((congrArg fdiv4 (colIota_apply k)).trans (fdiv4_ofNat k)))

/-- The row of quotients spread over the matrix: entry (k, l) is ⌊l / 4⌋. -/
theorem rowQuot_apply (k l : Fin 128) :
    broadcastInDim S128x128 ![0, 1] Gen.bcast_S1x128_S128x128_0_1 (fdivRow rowIota) (ix2 k l) = BitVec.ofNat 32 (l.val / 4) :=
  (spread_row (fdivRow rowIota) k l).trans
    ((fdivRow_apply rowIota (ix2 (0 : Fin 1) l)).trans ((congrArg fdiv4 (rowIota_apply l)).trans (fdiv4_ofNat l)))

/-- Two numbers below 32 are equal as 32-bit words exactly when they are equal. -/
theorem cmp_quot (a b : ℕ) (ha : a < 32) (hb : b < 32) :
    IntOp.cmpi .eq (BitVec.ofNat 32 a) (BitVec.ofNat 32 b) = if a = b then 1#1 else 0#1 := by
  unfold IntOp.cmpi
  by_cases h : a = b
  · rw [if_pos h, h]
    simp
  · rw [if_neg h]
    have hne : BitVec.ofNat 32 a ≠ BitVec.ofNat 32 b := by
      intro e
      have e' := congrArg BitVec.toNat e
      simp only [BitVec.toNat_ofNat] at e'
      omega
    show BitVec.ofBool (BitVec.ofNat 32 a == BitVec.ofNat 32 b) = 0#1
    rw [beq_eq_false_iff_ne.mpr hne]
    rfl

/-- Entry (k, l) of the composed matrix is 1 when k and l lie in the same group of four and 0 otherwise. -/
theorem groupMatrix_apply (k l : Fin 128) : groupMatrix (ix2 k l) = Cert.SegLoss.grp k.val l.val := by
  have hk : k.val < 128 := k.isLt
  have hl : l.val < 128 := l.isLt
  show FloatOps.uitofp (F := Ideal) .f32 (IntOp.cmpi .eq
      (broadcastInDim S128x128 ![0, 1] Gen.bcast_S128x1_S128x128_0_1 (fdivCol colIota) (ix2 k l))
      (broadcastInDim S128x128 ![0, 1] Gen.bcast_S1x128_S128x128_0_1 (fdivRow rowIota) (ix2 k l))) = _
  rw [colQuot_apply, rowQuot_apply, cmp_quot _ _ (by omega) (by omega)]
  unfold Cert.SegLoss.grp
  by_cases h : k.val / 4 = l.val / 4
  · rw [if_pos h, if_pos h]
    show (((1#1 : BitVec 1).toNat : ℝ) : EReal) = 1
    simp
  · rw [if_neg h, if_neg h]
    show (((0#1 : BitVec 1).toNat : ℝ) : EReal) = 0
    simp

/-- Entry (k, l) of the grouping matrix the region finds is 1 when k and l lie in the same group of four and 0
    otherwise. -/
theorem group_matrix_read (k l : Fin 128) :
    (Gen.V m c main_v10 : S128x128.Idx → EReal) (ix2 k l) = Cert.SegLoss.grp k.val l.val := by
  rw [group_eq]
  exact groupMatrix_apply k l

end Cert.KernelIdeal.HostArrays

end
-- ==== Proof.LibBlockSum.lean ====
/-
  General lemmas: a sum over J·K consecutive naturals, cut into J consecutive blocks of K.

  In a commutative additive monoid (the extended reals are one: their sum is commutative and associative, also at the
  infinities) the sum of g over 0 … J·K − 1 is the sum, over the blocks s = 0 … J − 1, of the sum of g over the block's
  K members s·K + 0 … s·K + (K − 1). `sum_range_blocks` states it over ranges of naturals, `sum_fin_blocks` with the
  members of a block and the whole index set as finite types, the form in which a contraction blocked along its
  summation axis meets the unblocked contraction.
-/
import Mathlib.Algebra.BigOperators.Fin

namespace Cert.LibBlockSum

open scoped BigOperators

variable {β : Type*} [AddCommMonoid β]

/-- The J blocks of K consecutive naturals exhaust 0 … J·K − 1: the sum block by block is the whole sum. -/
theorem sum_range_blocks (g : ℕ → β) (J K : ℕ) :
    ∑ s ∈ Finset.range J, ∑ k ∈ Finset.range K, g (s * K + k) = ∑ n ∈ Finset.range (J * K), g n := by
  induction J with
  | zero => simp
  | succ J ih => rw [Finset.sum_range_succ, ih, Nat.succ_mul, Finset.sum_range_add]

/-- The same with each block's members and the whole index set as finite types. -/
theorem sum_fin_blocks (g : ℕ → β) (J K : ℕ) :
    ∑ s ∈ Finset.range J, ∑ k : Fin K, g (s * K + k.val) = ∑ n : Fin (J * K), g n.val := by
  rw [← Finset.sum_range (fun n => g n), ← sum_range_blocks]
  exact Finset.sum_congr rfl fun s _ => (Finset.sum_range (fun k => g (s * K + k))).symm

end Cert.LibBlockSum
-- ==== Proof.SegSums.lean ====
/-
  The two totals agree: the sum over all 33554432 lanes of the loss of the group a lane lies in counts every one of
  the 8388608 groups once per lane, that is four times, and the divisor 33554432 is four times 8388608. A lane of a
  row after the grouping product holds exactly the sum of the four products of its own group, so the lane's loss is
  its group's loss; the accumulators' grand total is the lane total by cutting a range of naturals into consecutive
  blocks five times over. Every loss is an absolute value, hence nonnegative, so the total of the losses is a
  nonnegative real or +∞; in the second case both means are +∞, in the first the identity is one of real numbers.
-/
import proofs.«159344_j59270548684945_2_alg».proof.Proof.SegSpec
import proofs.«159344_j59270548684945_2_alg».proof.Proof.LibBlockSum

noncomputable section

namespace Cert.SegLoss

open Idealize.ShloMosaic
open scoped BigOperators

/-! ### Nonnegativity -/

/-- An absolute value is nonnegative: one of x, −x is. -/
theorem absE_nonneg (x : EReal) : 0 ≤ absE x := by
  unfold absE
  rcases le_total 0 x with h | h
  · exact le_max_of_le_left h
  · exact le_max_of_le_right (EReal.neg_nonneg.mpr h)

/-- A group's loss is nonnegative. -/
theorem loss_nonneg (P : ℕ → EReal) (s : ℕ) : 0 ≤ loss P s := by
  unfold loss dev
  exact absE_nonneg _

/-- The total of the losses is nonnegative. -/
theorem refTotal_nonneg (P : ℕ → EReal) : 0 ≤ refTotal P := by
  unfold refTotal
  exact Finset.sum_nonneg fun s _ => loss_nonneg P s

/-! ### A lane of the grouping product holds its group's sum -/

/-- Row g·4 + k (k < 4) of the grouping matrix lies in group g: its entry in column l is 1 when g is l's group. -/
theorem grp_block (g k l : ℕ) (hk : k < 4) : grp (g * 4 + k) l = if g = l / 4 then 1 else 0 := by
  unfold grp
  have h : (g * 4 + k) / 4 = g := by omega
  rw [h]

/-- The row's 128 products weighted by column l of the grouping matrix add up to the sum of the four products of
    the group position r·128 + l lies in: of the row's 32 groups only l's own has weight 1. -/
theorem row_sum (P : ℕ → EReal) (r l : ℕ) (hl : l < 128) :
    ∑ k ∈ Finset.range 128, P (r * 128 + k) * grp k l = seg P ((r * 128 + l) / 4) := by
  have h := Cert.LibBlockSum.sum_range_blocks (fun k => P (r * 128 + k) * grp k l) 32 4
  have e : (32 * 4 : ℕ) = 128 := by norm_num
  rw [e] at h
  rw [← h, Finset.sum_eq_single (l / 4)]
  · unfold seg
    refine Finset.sum_congr rfl fun k hk => ?_
    have hk4 : k < 4 := Finset.mem_range.mp hk
    show P (r * 128 + (l / 4 * 4 + k)) * grp (l / 4 * 4 + k) l = P ((r * 128 + l) / 4 * 4 + k)
    rw [grp_block _ _ _ hk4, if_pos rfl, mul_one]
    congr 1
    omega
  · intro g _ hg
    refine Finset.sum_eq_zero fun k hk => ?_
    have hk4 : k < 4 := Finset.mem_range.mp hk
    show P (r * 128 + (g * 4 + k)) * grp (g * 4 + k) l = 0
    rw [grp_block _ _ _ hk4, if_neg hg, mul_zero]
  · intro hnot
    exact absurd (Finset.mem_range.mpr (by omega)) hnot

/-- Lane l of row r after the grouping product and the loss is the loss of the group position r·128 + l lies in. -/
theorem entry_eq (P : ℕ → EReal) (r l : ℕ) (hl : l < 128) : entry P r l = loss P ((r * 128 + l) / 4) := by
  unfold entry loss
  rw [row_sum P r l hl]

/-! ### Re-bracketing the grand total -/

section Monoid

variable {β : Type*} [AddCommMonoid β]

/-- The innermost of three nested sums moved outermost. -/
theorem sum_rotate (B C D : Finset ℕ) (f : ℕ → ℕ → ℕ → β) :
    ∑ s ∈ B, ∑ l ∈ C, ∑ j ∈ D, f s l j = ∑ j ∈ D, ∑ s ∈ B, ∑ l ∈ C, f s l j := by
  calc ∑ s ∈ B, ∑ l ∈ C, ∑ j ∈ D, f s l j
      = ∑ s ∈ B, ∑ j ∈ D, ∑ l ∈ C, f s l j := Finset.sum_congr rfl fun s _ => Finset.sum_comm
    _ = ∑ j ∈ D, ∑ s ∈ B, ∑ l ∈ C, f s l j := Finset.sum_comm

/-- A range of A·B·C·D·E naturals cut into blocks five deep: the sum over the mixed-radix digits (c, j, q, s, l) of
    g at the number they spell is the sum of g over the range. -/
theorem sum_blocks5 (g : ℕ → β) (A B C D E : ℕ) :
    ∑ c ∈ Finset.range A, ∑ j ∈ Finset.range B, ∑ q ∈ Finset.range C, ∑ s ∈ Finset.range D, ∑ l ∈ Finset.range E,
        g ((((c * B + j) * C + q) * D + s) * E + l)
      = ∑ n ∈ Finset.range (A * B * C * D * E), g n := by
  rw [← Cert.LibBlockSum.sum_range_blocks g (A * B * C * D) E,
    ← Cert.LibBlockSum.sum_range_blocks (fun r => ∑ l ∈ Finset.range E, g (r * E + l)) (A * B * C) D,
    ← Cert.LibBlockSum.sum_range_blocks
      (fun t => ∑ s ∈ Finset.range D, ∑ l ∈ Finset.range E, g ((t * D + s) * E + l)) (A * B) C,
    ← Cert.LibBlockSum.sum_range_blocks
      (fun u => ∑ q ∈ Finset.range C, ∑ s ∈ Finset.range D, ∑ l ∈ Finset.range E,
        g (((u * C + q) * D + s) * E + l)) A B]

/-- Four equal terms. -/
theorem sum_four (c : β) : ∑ _k ∈ Finset.range 4, c = c + c + c + c := by
  rw [Finset.sum_range_succ, Finset.sum_range_succ, Finset.sum_range_succ, Finset.sum_range_succ,
    Finset.sum_range_zero, zero_add]

end Monoid

/-- The two halves' accumulators, added over their 8 sublanes and 128 lanes, hold the lane total: half c, chunk j,
    row q·8 + s8 of the chunk and lane l spell the position ((((c·64 + j)·256 + q)·8 + s8)·128 + l, and these
    positions are 0 … 33554431 once each. -/
theorem acc_total (P : ℕ → EReal) :
    ∑ c ∈ Finset.range 2, ∑ s8 ∈ Finset.range 8, ∑ l ∈ Finset.range 128, acc P c 64 s8 l = laneTotal P := by
  unfold acc laneTotal
  have h1 : ∀ c ∈ Finset.range 2,
      (∑ s8 ∈ Finset.range 8, ∑ l ∈ Finset.range 128, ∑ j ∈ Finset.range 64, ∑ q ∈ Finset.range 256,
          entry P ((((c * 64 + j) * 256 + q) * 8) + s8) l)
        = ∑ j ∈ Finset.range 64, ∑ q ∈ Finset.range 256, ∑ s8 ∈ Finset.range 8, ∑ l ∈ Finset.range 128,
            loss P (((((c * 64 + j) * 256 + q) * 8 + s8) * 128 + l) / 4) := by
    intro c _
    rw [sum_rotate]
    refine Finset.sum_congr rfl fun j _ => ?_
    rw [sum_rotate]
    refine Finset.sum_congr rfl fun q _ => ?_
    refine Finset.sum_congr rfl fun s8 _ => ?_
    refine Finset.sum_congr rfl fun l hl => ?_
    exact entry_eq P _ l (Finset.mem_range.mp hl)
  rw [Finset.sum_congr rfl h1]
  have h2 := sum_blocks5 (fun n => loss P (n / 4)) 2 64 256 8 128
  have e : (2 * 64 * 256 * 8 * 128 : ℕ) = 33554432 := by norm_num
  rw [e] at h2
  exact h2

/-- Every group is counted once per lane: the lane total is four times the total of the losses. -/
theorem laneTotal_eq (P : ℕ → EReal) :
    laneTotal P = refTotal P + refTotal P + refTotal P + refTotal P := by
  unfold laneTotal refTotal
  have h := Cert.LibBlockSum.sum_range_blocks (fun n => loss P (n / 4)) 8388608 4
  have e : (8388608 * 4 : ℕ) = 33554432 := by norm_num
  rw [e] at h
  rw [← h]
  have h1 : ∀ s ∈ Finset.range 8388608,
      ∑ k ∈ Finset.range 4, loss P ((s * 4 + k) / 4) = loss P s + loss P s + loss P s + loss P s := by
    intro s _
    rw [← sum_four]
    refine Finset.sum_congr rfl fun k hk => ?_
    have hk4 : k < 4 := Finset.mem_range.mp hk
    have hs : (s * 4 + k) / 4 = s := by omega
    rw [hs]
  rw [Finset.sum_congr rfl h1, Finset.sum_add_distrib, Finset.sum_add_distrib, Finset.sum_add_distrib]

/-! ### The two means -/

/-- The float word 0x4C000000 is 2²⁵ = 33554432. -/
theorem ofBits_lanes : Ideal.ofBits .f32 0x4C000000#32 = ((33554432 : ℝ) : EReal) := by
  simp [Ideal.ofBits, Ideal.ieee, -EReal.coe_mul]; norm_num

/-- The float word 0x4B000000 is 2²³ = 8388608. -/
theorem ofBits_groups : Ideal.ofBits .f32 0x4B000000#32 = ((8388608 : ℝ) : EReal) := by
  simp [Ideal.ofBits, Ideal.ieee, -EReal.coe_mul]

/-- The float word 0 is 0. -/
theorem ofBits_zero : Ideal.ofBits .f32 0x00000000#32 = 0 := by
  simp [Ideal.ofBits, Ideal.ieee]

/-- Four copies of a nonnegative S over 33554432 are S over 8388608: +∞ on both sides when S is, an identity of reals
    otherwise. -/
theorem four_fold (S : EReal) (hS : 0 ≤ S) :
    (S + S + S + S) * ((1 / 33554432 : ℝ) : EReal) = S * ((1 / 8388608 : ℝ) : EReal) := by
  induction S using EReal.rec with
  | bot => exact absurd hS (by simp)
  | top =>
    rw [EReal.top_add_top, EReal.top_add_top, EReal.top_add_top, EReal.top_mul_coe_of_pos (by norm_num),
      EReal.top_mul_coe_of_pos (by norm_num)]
  | coe x =>
    rw [← EReal.coe_add, ← EReal.coe_add, ← EReal.coe_add, ← EReal.coe_mul, ← EReal.coe_mul]
    congr 1
    ring

/-- The mean over the 33554432 lanes is the mean over the 8388608 groups. -/
theorem mean_eq (P : ℕ → EReal) :
    Ideal.div (Ideal.ofBits .f32 0x00000000#32 + laneTotal P) (Ideal.ofBits .f32 0x4C000000#32)
      = Ideal.div (Ideal.ofBits .f32 0x00000000#32 + refTotal P) (Ideal.ofBits .f32 0x4B000000#32) := by
  rw [ofBits_zero, zero_add, zero_add, ofBits_lanes, ofBits_groups, Ideal.div_coe (by norm_num),
    Ideal.div_coe (by norm_num), laneTotal_eq]
  exact four_fold (refTotal P) (refTotal_nonneg P)

end Cert.SegLoss

end
-- ==== Proof.PointValue.lean ====
/-
  What the accumulator holds after each grid point, for the two argument arrays.

  Grid point t (0 … 15) is tile t mod 8 of half t / 8; its blocks are rows t·16384 … of the two row arrays, which are
  the argument arrays cut into rows of 128, and the whole grouping matrix. So lane l of block row ρ carries the loss of
  the spec's `entry` at row t·16384 + ρ of the product stream, and after point t the accumulator at (s8, l) is the
  spec's `acc` of half t / 8 after (t mod 8 + 1)·8 chunks: by induction on t, the first point of a half starting from the
  zero fill and every other point from what the point before left.
-/
import proofs.«159344_j59270548684945_2_alg».proof.Proof.BlockValue
import proofs.«159344_j59270548684945_2_alg».proof.Proof.CaseValue
import proofs.«159344_j59270548684945_2_alg».proof.Proof.HostArrays
import proofs.«159344_j59270548684945_2_alg».proof.Proof.SegSums

set_option maxRecDepth 16384

noncomputable section

namespace Cert.KernelIdeal.Points

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Scratch Cert.KernelIdeal.Block
open scoped BigOperators

variable (m : (ℓ : Loc nD τ sig) → Buf (Elt Ideal) ℓ) (c : Dev nD)

/-- The product stream of the two argument arrays. -/
def PS : ℕ → EReal :=
  Cert.SegLoss.stream (m ((c : Thread nD τ).loc main_arg0)) (m ((c : Thread nD τ).loc main_arg1))

/-- The three input blocks of point t. -/
def B0 (t : Fin cfg0.N) : FVec Ideal S16384x128 .f32 := iblk m c 0 t
def B1 (t : Fin cfg0.N) : FVec Ideal S16384x128 .f32 := iblk m c 1 t
def B2 (t : Fin cfg0.N) : FVec Ideal S128x128 .f32 := iblk m c 2 t

/-- The printed index maps over the grid: the row blocks move with the point, the matrix stays, the output block is
    the half's. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val / 8 ∧ win0_3.index t (1 : Fin 3) = 0 ∧ win0_3.index t (2 : Fin 3) = 0 :=
  (by decide +kernel : ∀ t : Fin grid0.N, _)

theorem B0_rows (t : Fin cfg0.N) (r k : ℕ) (hr : r < 16384) (hk : k < 128) :
    rowsOf (B0 m c t) r k = Cert.SegLoss.at1 (m ((c : Thread nD τ).loc main_arg0)) ((t.val * 16384 + r) * 128 + k) := by
  have hN : t.val < 16 := lt_of_lt_of_eq t.isLt (show cfg0.N = 16 from N_0)
  have hR : t.val * 16384 + r < 262144 := by omega
  obtain ⟨e0, e1, -⟩ := idx_facts t
  rw [← rowsOf_ix2 (B0 m c t) ⟨r, hr⟩ ⟨k, hk⟩]
  have h := Cert.KernelIdeal.HostArrays.rows_read0 m c ⟨t.val * 16384 + r, hR⟩ ⟨k, hk⟩
  refine Eq.trans ?_ h
  show V m c main_v0 (((cfg0.win 0).blk t).view.emb (ix2 ⟨r, hr⟩ ⟨k, hk⟩)) = V m c main_v0 (ix2 ⟨t.val * 16384 + r, hR⟩ ⟨k, hk⟩)
  refine congrArg (V m c main_v0) (funext fun a => Fin.ext ?_)
  match a with
  | ⟨0, _⟩ => show win0_0.index t (0 : Fin 2) * 16384 + 1 * r = t.val * 16384 + r; omega
  | ⟨1, _⟩ => show win0_0.index t (1 : Fin 2) * 128 + 1 * k = k; omega

theorem B1_rows (t : Fin cfg0.N) (r k : ℕ) (hr : r < 16384) (hk : k < 128) :
    rowsOf (B1 m c t) r k = Cert.SegLoss.at1 (m ((c : Thread nD τ).loc main_arg1)) ((t.val * 16384 + r) * 128 + k) := by
  have hN : t.val < 16 := lt_of_lt_of_eq t.isLt (show cfg0.N = 16 from N_0)
  have hR : t.val * 16384 + r < 262144 := by omega
  obtain ⟨-, -, e0, e1, -⟩ := idx_facts t
  rw [← rowsOf_ix2 (B1 m c t) ⟨r, hr⟩ ⟨k, hk⟩]
  have h := Cert.KernelIdeal.HostArrays.rows_read1 m c ⟨t.val * 16384 + r, hR⟩ ⟨k, hk⟩
  refine Eq.trans ?_ h
  show V m c main_v1 (((cfg0.win 1).blk t).view.emb (ix2 ⟨r, hr⟩ ⟨k, hk⟩)) = V m c main_v1 (ix2 ⟨t.val * 16384 + r, hR⟩ ⟨k, hk⟩)
  refine congrArg (V m c main_v1) (funext fun a => Fin.ext ?_)
  match a with
  | ⟨0, _⟩ => show win0_1.index t (0 : Fin 2) * 16384 + 1 * r = t.val * 16384 + r; omega
  | ⟨1, _⟩ => show win0_1.index t (1 : Fin 2) * 128 + 1 * k = k; omega

theorem B2_rows (t : Fin cfg0.N) (k l : ℕ) (hk : k < 128) (hl : l < 128) :
    rowsOf (B2 m c t) k l = Cert.SegLoss.grp k l := by
  obtain ⟨-, -, -, -, e0, e1, -⟩ := idx_facts t
  rw [← rowsOf_ix2 (B2 m c t) ⟨k, hk⟩ ⟨l, hl⟩]
  have h := Cert.KernelIdeal.HostArrays.group_matrix_read m c ⟨k, hk⟩ ⟨l, hl⟩
  refine Eq.trans ?_ h
  show V m c main_v10 (((cfg0.win 2).blk t).view.emb (ix2 ⟨k, hk⟩ ⟨l, hl⟩)) = V m c main_v10 (ix2 ⟨k, hk⟩ ⟨l, hl⟩)
  refine congrArg (V m c main_v10) (funext fun a => Fin.ext ?_)
  match a with
  | ⟨0, _⟩ => show win0_2.index t (0 : Fin 2) * 128 + 1 * k = k; omega
  | ⟨1, _⟩ => show win0_2.index t (1 : Fin 2) * 128 + 1 * l = l; omega

/-- Lane l of block row ρ of point t carries the spec's entry at row t·16384 + ρ. -/
theorem laneLoss_eq (t : Fin cfg0.N) (ρ l : ℕ) (hρ : ρ < 16384) (hl : l < 128) :
    laneLoss (B0 m c t) (B1 m c t) (B2 m c t) ρ l = Cert.SegLoss.entry (PS m c) (t.val * 16384 + ρ) l := by
  unfold laneLoss Cert.SegLoss.entry
  refine congrArg Cert.SegLoss.dev (Finset.sum_congr rfl fun k hk => ?_)
  have hk' : k < 128 := Finset.mem_range.mp hk
  rw [B0_rows m c t ρ k hρ hk', B1_rows m c t ρ k hρ hk', B2_rows m c t k l hk' hl]
  rfl

/-- One point's eight chunks in the spec's terms. -/
theorem point_sum (t : Fin cfg0.N) (s8 : Fin 8) (l : Fin 128) :
    ∑ j ∈ Finset.range 8, ∑ q ∈ Finset.range 256, laneLoss (B0 m c t) (B1 m c t) (B2 m c t) (2048 * j + (q * 8 + s8.val)) l.val
      = ∑ j ∈ Finset.range 8, ∑ q ∈ Finset.range 256,
          Cert.SegLoss.entry (PS m c) (((((t.val / 8) * 64 + ((t.val % 8) * 8 + j)) * 256 + q) * 8) + s8.val) l.val := by
  refine Finset.sum_congr rfl fun j hj => Finset.sum_congr rfl fun q hq => ?_
  have hj' : j < 8 := Finset.mem_range.mp hj
  have hq' : q < 256 := Finset.mem_range.mp hq
  have hs := s8.isLt
  rw [laneLoss_eq m c t _ _ (by omega) l.isLt]
  refine congrArg (fun r => Cert.SegLoss.entry (PS m c) r l.val) ?_
  omega

/-- Eight more chunks of a half. -/
theorem acc_step (P : ℕ → EReal) (cc n s8 l : ℕ) :
    Cert.SegLoss.acc P cc (n + 8) s8 l
      = Cert.SegLoss.acc P cc n s8 l + ∑ j ∈ Finset.range 8, ∑ q ∈ Finset.range 256,
          Cert.SegLoss.entry P ((((cc * 64 + (n + j)) * 256 + q) * 8) + s8) l := by
  unfold Cert.SegLoss.acc
  rw [Finset.sum_range_add]

/-- The first eight chunks of a half. -/
theorem acc_first (P : ℕ → EReal) (n s8 l : ℕ) (h0 : n % 8 = 0) :
    ∑ j ∈ Finset.range 8, ∑ q ∈ Finset.range 256,
        Cert.SegLoss.entry P (((((n / 8) * 64 + ((n % 8) * 8 + j)) * 256 + q) * 8) + s8) l
      = Cert.SegLoss.acc P (n / 8) ((n % 8 + 1) * 8) s8 l := by
  rw [h0]
  unfold Cert.SegLoss.acc
  simp only [zero_mul, zero_add, one_mul]

/-- The zero fill reads zero. -/
theorem zero_fill (s8 : Fin 8) (l : Fin 128) : k0_pay1 (F := Ideal) (ix2 s8 l) = 0 := by
  unfold k0_pay1
  rw [shapeCast_self]
  exact Ideal.ofBits_zero_f32

/-- THE ACCUMULATOR after point n: half n / 8 after (n mod 8 + 1)·8 chunks. -/
theorem acc_after_point : ∀ (n : ℕ) (hn : n < cfg0.N) (s8 : Fin 8) (l : Fin 128),
    (outsAt0 m c n hn).2 (ix2 s8 l) = Cert.SegLoss.acc (PS m c) (n / 8) ((n % 8 + 1) * 8) s8.val l.val := by
  intro n
  induction n with
  | zero =>
    intro hn s8 l
    have h8 : (8 : ℕ) ≤ k0_t1_loop.trips := le_of_eq trips_eq.symm
    rw [outsAt0_A m c ⟨0, hn⟩ (Nat.zero_mod _) (by show ¬(0 : ℕ) % 8 = 7; decide)]
    show sout0_A_0 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) _ _ (B0 m c ⟨0, hn⟩) (B1 m c ⟨0, hn⟩) (B2 m c ⟨0, hn⟩) (ix2 s8 l) = _
    rw [sout_A, accAfter_ix2 (B0 m c ⟨0, hn⟩) (B1 m c ⟨0, hn⟩) (B2 m c ⟨0, hn⟩) _ s8 l 8 h8, zero_fill, zero_add,
      point_sum m c ⟨0, hn⟩ s8 l]
    exact acc_first (PS m c) 0 s8.val l.val (Nat.zero_mod 8)
  | succ n ih =>
    intro hn s8 l
    have h8 : (8 : ℕ) ≤ k0_t1_loop.trips := le_of_eq trips_eq.symm
    have hN : n + 1 < 16 := lt_of_lt_of_eq hn (show cfg0.N = 16 from N_0)
    by_cases h0 : (n + 1) % 8 = 0
    · have h1 : ¬(n + 1) % 8 = 7 := by omega
      rw [outsAt0_A m c ⟨n + 1, hn⟩ h0 h1]
      show sout0_A_0 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (B0 m c ⟨n + 1, hn⟩) (B1 m c ⟨n + 1, hn⟩) (B2 m c ⟨n + 1, hn⟩) (ix2 s8 l) = _
      rw [sout_A, accAfter_ix2 (B0 m c ⟨n + 1, hn⟩) (B1 m c ⟨n + 1, hn⟩) (B2 m c ⟨n + 1, hn⟩) _ s8 l 8 h8, zero_fill, zero_add,
        point_sum m c ⟨n + 1, hn⟩ s8 l]
      exact acc_first (PS m c) (n + 1) s8.val l.val h0
    · have ihn := ih (Nat.lt_of_succ_lt hn) s8 l
      have hdiv : n / 8 = (n + 1) / 8 := by omega
      have hmod : (n % 8 + 1) * 8 = (n + 1) % 8 * 8 := by omega
      rw [hdiv, hmod] at ihn
      have hstep := acc_step (PS m c) ((n + 1) / 8) ((n + 1) % 8 * 8) s8.val l.val
      rw [show (n + 1) % 8 * 8 + 8 = ((n + 1) % 8 + 1) * 8 from by omega] at hstep
      by_cases h1 : (n + 1) % 8 = 7
      · rw [outsAt0_C m c ⟨n + 1, hn⟩ h0 h1]
        show sout0_C_0 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (B0 m c ⟨n + 1, hn⟩) (B1 m c ⟨n + 1, hn⟩) (B2 m c ⟨n + 1, hn⟩) (outsAt0 m c n (Nat.lt_of_succ_lt hn)).2 (ix2 s8 l) = _
        rw [sout_C, accAfter_ix2 (B0 m c ⟨n + 1, hn⟩) (B1 m c ⟨n + 1, hn⟩) (B2 m c ⟨n + 1, hn⟩) _ s8 l 8 h8, ihn,
          point_sum m c ⟨n + 1, hn⟩ s8 l]
        exact hstep.symm
      · rw [outsAt0_B m c ⟨n + 1, hn⟩ h0 h1]
        show sout0_B_0 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (B0 m c ⟨n + 1, hn⟩) (B1 m c ⟨n + 1, hn⟩) (B2 m c ⟨n + 1, hn⟩) (outsAt0 m c n (Nat.lt_of_succ_lt hn)).2 (ix2 s8 l) = _
        rw [sout_B, accAfter_ix2 (B0 m c ⟨n + 1, hn⟩) (B1 m c ⟨n + 1, hn⟩) (B2 m c ⟨n + 1, hn⟩) _ s8 l 8 h8, ihn,
          point_sum m c ⟨n + 1, hn⟩ s8 l]
        exact hstep.symm

end Cert.KernelIdeal.Points

end
-- ==== Proof.ArrayValue.lean ====
/-
  The kernel's output array and its result.

  The output array is 2 × 8 × 128: half cc's block is written back once, after the half's last point, and holds the
  half's accumulator after all 64 chunks. The host then adds the 2048 entries from zero and divides by 33554432. The
  entries are the spec's `acc`, their sum is the spec's `laneTotal` of the product stream.
-/
import proofs.«159344_j59270548684945_2_alg».proof.Proof.PointValue
import Idealize.ShloMosaic.Lib.StableHlo.Run
import Idealize.ShloMosaic.Lib.Pipeline.FrameSuffix

set_option maxRecDepth 16384

noncomputable section

namespace Cert.KernelIdeal.Result

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Scratch Cert.KernelIdeal.Block Cert.KernelIdeal.Points
open scoped BigOperators

variable (m : (ℓ : Loc nD τ sig) → Buf (Elt Ideal) ℓ) (ρ : Dev nD → PrngReg) (c : Dev nD)

/-- The output array: entry (cc, s8, l) is half cc's accumulator at (s8, l) after its 64 chunks. -/
def OutArr : S2x8x128.Idx → EReal :=
  fun i => Cert.SegLoss.acc (PS m c) (i 0).val 64 (i 1).val (i 2).val

/-- A sum over the indices of a rank-3 shape is the triple sum over the ranges of its extents. -/
theorem sum_idx3 {n0 n1 n2 : ℕ} (f : (⟨3, ![n0, n1, n2]⟩ : Shape).Idx → EReal) (g : ℕ → ℕ → ℕ → EReal)
    (h : ∀ (a : Fin n0) (b : Fin n1) (d : Fin n2), f (ix3 a b d) = g a.val b.val d.val) :
    ∑ j : (⟨3, ![n0, n1, n2]⟩ : Shape).Idx, f j
      = ∑ a ∈ Finset.range n0, ∑ b ∈ Finset.range n1, ∑ d ∈ Finset.range n2, g a b d := by
  rw [Finset.sum_range]
  have e : ∑ j : (⟨3, ![n0, n1, n2]⟩ : Shape).Idx, f j = ∑ p : Fin n0 × Fin n1 × Fin n2, g p.1.val p.2.1.val p.2.2.val :=
    Fintype.sum_equiv ⟨fun j => (j 0, j 1, j 2), fun p => ix3 p.1 p.2.1 p.2.2, fun j => (eq_ix3 j).symm, fun p => rfl⟩
      f (fun p => g p.1.val p.2.1.val p.2.2.val) fun j => by rw [eq_ix3 j]; exact h (j 0) (j 1) (j 2)
  rw [e, Fintype.sum_prod_type]
  refine Finset.sum_congr rfl fun a _ => ?_
  rw [Fintype.sum_prod_type, Finset.sum_range]
  refine Finset.sum_congr rfl fun b _ => ?_
  rw [Finset.sum_range]

theorem mem_blk3 (t : Fin cfg0.N) (i : S2x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v11).slice (win0_3.rect t)).set ↔ _
  rw [View.set_slice_whole, Rect.mem_set_unit]
  exact Iff.rfl

/-- The accumulator re-laid as a 1 × 8 × 128 block reads, at (·, s8, l), the accumulator at (s8, l). -/
theorem block_of_acc (X : FVec Ideal S8x128 .f32) (y : S1x8x128.Idx) :
    k0_pay3 (F := Ideal) X y = X (ix2 (y 1) (y 2)) := by
  unfold k0_pay3
  have hy0 : (y 0).val < 1 := (y 0).isLt
  refine shapeCast_apply _ _ y (ix2 (y 1) (y 2)) ?_
  rw [Shape.rowMajor_val_two, Shape.rowMajor_val_three]
  show (y 1).val * 128 + (y 2).val = ((y 0).val * 8 + (y 1).val) * 128 + (y 2).val
  omega

/-- What the last point of a half leaves in the output block: the half's accumulator after its 64 chunks. -/
theorem out_at_last (t : Fin cfg0.N) (h1 : t.val % 8 = 7) (y : S1x8x128.Idx) :
    (outsAt0 m c t.val t.isLt).1 y = Cert.SegLoss.acc (PS m c) (t.val / 8) 64 (y 1).val (y 2).val := by
  have h0 : ¬t.val % 8 = 0 := by omega
  have hs := acc_after_point m c t.val t.isLt (y 1) (y 2)
  rw [outsAt0_C m c t h0 h1] at hs ⊢
  dsimp only at hs ⊢
  rw [sout_C, h1] at hs
  rw [out_C, block_of_acc]
  exact hs

set_option maxHeartbeats 1000000 in
/-- What the last point of a half writes back is the half's block of the output array. -/
theorem flushed3_eq (t : Fin cfg0.N) (hf : (cfg0.win 3).flush t = true) :
    (dats m 0 c).flushed 3 t = ((cfg0.win 3).blk t).view.read (Elt Ideal) (OutArr m c) := by
  have h1 : t.val % 8 = 7 := (flush0_3 t).mp hf
  show (cfg0.win 3).cut (grid0.coords t) ((dats m 0 c).after 3 t) = _
  rw [after0_3]
  obtain ⟨-, -, -, -, -, -, e0, e1, e2⟩ := idx_facts t
  funext y
  refine (out_at_last m c t h1 y).trans ?_
  show _ = OutArr m c (((cfg0.win 3).blk t).view.emb y)
  unfold OutArr
  have hy0 : (y 0).val < 1 := (y 0).isLt
  have q0 : ((((cfg0.win 3).blk t).view.emb y) 0).val = t.val / 8 := by
    show win0_3.index t (0 : Fin 3) * 1 + 1 * (y 0).val = t.val / 8; omega
  have q1 : ((((cfg0.win 3).blk t).view.emb y) 1).val = (y 1).val := by
    show win0_3.index t (1 : Fin 3) * 8 + 1 * (y 1).val = (y 1).val; omega
  have q2 : ((((cfg0.win 3).blk t).view.emb y) 2).val = (y 2).val := by
    show win0_3.index t (2 : Fin 3) * 128 + 1 * (y 2).val = (y 2).val; omega
  rw [q0, q1, q2]

/-- Every entry of the output array lies in the block its half's last point writes back. -/
theorem cover3 (i : S2x8x128.Idx) :
    ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 128 := (i 2).isLt
  have hN : cfg0.N = 16 := N_0
  let t : Fin cfg0.N := ⟨(i 0).val * 8 + 7, by rw [hN]; omega⟩
  obtain ⟨-, -, -, -, -, -, e0, e1, e2⟩ := idx_facts t
  have ht : t.val = (i 0).val * 8 + 7 := rfl
  refine ⟨t, (flush0_3 t).mpr (by rw [ht]; omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8 ≤ (i 1).val ∧ (i 1).val < win0_3.index t (1 : Fin 3) * 8 + 8; omega
  | ⟨2, _⟩ => show win0_3.index t (2 : Fin 3) * 128 ≤ (i 2).val ∧ (i 2).val < win0_3.index t (2 : Fin 3) * 128 + 128; omega

/-- THE OUTPUT ARRAY after the region. -/
theorem final3 : (dats m 0 c).arrAt 3 cfg0.N = OutArr m c :=
  (dats m 0 c).arrAt_eq_of_cover 3 (OutArr m c) (fun t hf => flushed3_eq m c t hf) (cover3)

/-- The sum of the output array's entries is the spec's lane total. -/
theorem out_total : ∑ j : S2x8x128.Idx, OutArr m c j = Cert.SegLoss.laneTotal (PS m c) := by
  rw [sum_idx3 (OutArr m c) (fun a b d => Cert.SegLoss.acc (PS m c) a 64 b d) (fun a b d => rfl)]
  exact Cert.SegLoss.acc_total (PS m c)

/-- The kernel's result: the output array's entries added from zero, over 33554432. -/
theorem tail_eq : Pipeline.afterTail₀ cfgs (dats m) 0 (V0 (F := Ideal) m) [hostOps1] c main_v13
    = fun _ => Ideal.div (Ideal.ofBits .f32 0x00000000#32 + Cert.SegLoss.laneTotal (PS m c)) (Ideal.ofBits .f32 0x4C000000#32) := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.tc.devRef main_v11) = OutArr m c :=
    (Pipeline.withArrays_arr spec0 launch0.win.arr_inj c _ _ 3).trans (final3 m c)
  rw [hw]
  funext i
  show FloatOps.hostDivf (Host.reduceAdd (F := Ideal) (OutArr m c) (constant S_ .f32 0x00000000#32) reducesTo_S2x8x128_S_d0_1_2 h_S_ i) (Ideal.ofBits .f32 0x4C000000#32) = _
  simp only [Host.reduceAdd, Ideal.hostReduceAdd_def, Ideal.hostDivf_def]
  rw [Ideal.hostReduceAdd_total reducesTo_S2x8x128_S_d0_1_2 (fun b => b.elim0) (OutArr m c) _ i, out_total]
  rfl

/-- THE KERNEL'S RUN, read: every weakly fair execution ends with the result at the spec's lane total over 33554432
    and the arguments unchanged. -/
theorem run : θ_run defs (onTc (τ := τ) (main (F := Ideal))) ⟨m, fun _ => 0, ρ⟩ (fun r => ∀ c : Dev nD,
      r.2.mem ((c.tc : Thread nD τ).loc main_v13)
        = (fun _ => Ideal.div (Ideal.ofBits .f32 0x00000000#32 + Cert.SegLoss.laneTotal (PS m c)) (Ideal.ofBits .f32 0x4C000000#32))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v13 (Pipeline.mem_restRefs_of main_v13 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Result

end
-- ==== Proof.RefValue.lean ====
/-
  The reference computes the spec's mean loss.

  Its program multiplies the two arrays entry by entry, views the products as 8388608 rows of four, sums each row from
  zero, squares, subtracts one, takes absolute values, sums the 8388608 losses from zero and divides by 8388608. Read
  index by index this is the spec's `refTotal` of the product stream, after the zero words are dropped and the sums over
  index types are rewritten as sums over ranges.
-/
import proofs.«159344_j59270548684945_2_alg».proof.Proof.Gen.ReferenceIdeal.Read
import proofs.«159344_j59270548684945_2_alg».proof.Proof.SegSpec
import Idealize.ShloMosaic.Lib.ValueIdx
import Idealize.ShloMosaic.PureOps.Ideal.Laws

noncomputable section

namespace Cert.ReferenceIdeal.RefValue

open Idealize.ShloMosaic Idealize.ShloMosaic.ValueIdx Idealize.SL.Sem
open Cert.ReferenceIdeal Cert.ReferenceIdeal.Gen Cert.ReferenceIdeal.Read
open scoped BigOperators

/-- A sum over the indices of a rank-1 shape is the sum over the range of its extent. -/
theorem sum_idx1 {n : ℕ} (f : (⟨1, ![n]⟩ : Shape).Idx → EReal) (g : ℕ → EReal)
    (h : ∀ s : Fin n, f (ix1 s) = g s.val) : ∑ j : (⟨1, ![n]⟩ : Shape).Idx, f j = ∑ s ∈ Finset.range n, g s := by
  rw [Finset.sum_range]
  refine Fintype.sum_equiv ⟨fun j => j 0, fun s => ix1 s, fun j => (eq_ix1 j).symm, fun s => rfl⟩ f (fun s => g s.val) fun j => ?_
  rw [eq_ix1 j]
  exact h (j 0)

/-- Group s's sum as the reference forms it. -/
theorem group_sum (a b : (⟨S33554432, .f32⟩ : BufTy).Contents (Elt Ideal)) (s : Fin 8388608) :
    val_main_v2 (F := Ideal) a b (ix1 s) = Cert.SegLoss.seg (Cert.SegLoss.stream a b) s.val := by
  rw [val_main_v2_apply, val_main_cst_apply]
  show Ideal.ofBits .f32 0x00000000#32 + _ = _
  rw [Ideal.ofBits_zero_f32, zero_add]
  unfold Cert.SegLoss.seg
  rw [Finset.sum_range]
  refine Finset.sum_congr rfl fun k _ => ?_
  rw [val_main_v1_apply, val_main_v0_apply]
  have hk : s.val * 4 + k.val < 33554432 := by have := s.isLt; have := k.isLt; omega
  have e : idx_main_v1 (idx_main_v2 (ix1 s) k) = ix1 ⟨s.val * 4 + k.val, hk⟩ :=
    funext fun d => Fin.ext (by match d with | ⟨0, _⟩ => rfl)
  rw [e]
  unfold Cert.SegLoss.stream Cert.SegLoss.at1
  rw [dif_pos hk, dif_pos hk]
  rfl

/-- Group s's loss as the reference forms it. -/
theorem group_loss (a b : (⟨S33554432, .f32⟩ : BufTy).Contents (Elt Ideal)) (s : Fin 8388608) :
    val_main_v6 (F := Ideal) a b (ix1 s) = Cert.SegLoss.loss (Cert.SegLoss.stream a b) s.val := by
  rw [val_main_v6_apply, val_main_v5_apply, val_main_v3_apply, val_main_v4_apply, val_main_cst_0_apply, group_sum]
  rfl

/-- THE REFERENCE'S RESULT: the spec's total over 8388608. -/
theorem result_eq (a b : (⟨S33554432, .f32⟩ : BufTy).Contents (Elt Ideal)) :
    val_main_v8 (F := Ideal) a b
      = fun _ => Ideal.div (Ideal.ofBits .f32 0x00000000#32 + Cert.SegLoss.refTotal (Cert.SegLoss.stream a b))
          (Ideal.ofBits .f32 0x4B000000#32) := by
  funext i
  rw [val_main_v8_apply, val_main_v7_apply, val_main_cst_1_apply, val_main_cst_2_apply]
  show Ideal.div (Ideal.ofBits .f32 0x00000000#32 + _) (Ideal.ofBits .f32 0x4B000000#32) = _
  unfold Cert.SegLoss.refTotal
  rw [sum_idx1 (val_main_v6 (F := Ideal) a b) (Cert.SegLoss.loss (Cert.SegLoss.stream a b)) (group_loss a b)]

end Cert.ReferenceIdeal.RefValue

end
-- ==== Proof.lean ====
/-
  The kernel and its reference compute the same mean loss.

  Both take two arrays of 33554432 numbers, multiply them entry by entry, cut the products into 8388608 groups of
  four, and average | z² − 1 | over the groups' sums z. The reference does exactly that. The kernel lays the products
  out in rows of 128, multiplies every row by the 0/1 matrix that sums each group of four into each of its four lanes,
  takes the loss lane by lane, accumulates 8 × 128 partial sums per half of the rows over a grid of 2 × 8 points with 8
  chunks each, adds the two halves' 2048 partial sums on the host and divides by 33554432. Every group's loss is thus
  counted four times and the divisor is four times the number of groups; losses are nonnegative, so the identity
  4·S / 2²⁵ = S / 2²³ holds on the extended reals for every input, and no finiteness of the inputs is used.

  The three programs' runs are the generated frame runs (the reference's generated run with the result dropped); the
  kernel's result is read off its frame run in Proof/ArrayValue.lean, the reference's off its run in Proof/RefValue.lean,
  and the law joining them is `Cert.SegLoss.mean_eq` (Proof/SegSums.lean).
-/
import proofs.«159344_j59270548684945_2_alg».proof.Defs
import proofs.«159344_j59270548684945_2_alg».proof.Proof.Gen.Kernel
import proofs.«159344_j59270548684945_2_alg».proof.Proof.Gen.Kernel.Skeleton
import proofs.«159344_j59270548684945_2_alg».proof.Proof.Gen.Kernel.Loops
import proofs.«159344_j59270548684945_2_alg».proof.Proof.Gen.Kernel.Launch
import proofs.«159344_j59270548684945_2_alg».proof.Proof.Gen.Kernel.Points
import proofs.«159344_j59270548684945_2_alg».proof.Proof.Gen.Kernel.Frame
import proofs.«159344_j59270548684945_2_alg».proof.Proof.Gen.KernelIdeal
import proofs.«159344_j59270548684945_2_alg».proof.Proof.Gen.KernelIdeal.Skeleton
import proofs.«159344_j59270548684945_2_alg».proof.Proof.Gen.KernelIdeal.Loops
import proofs.«159344_j59270548684945_2_alg».proof.Proof.Gen.KernelIdeal.Launch
import proofs.«159344_j59270548684945_2_alg».proof.Proof.Gen.KernelIdeal.Points
import proofs.«159344_j59270548684945_2_alg».proof.Proof.Gen.KernelIdeal.Frame
import proofs.«159344_j59270548684945_2_alg».proof.Proof.Gen.ReferenceIdeal
import proofs.«159344_j59270548684945_2_alg».proof.Proof.Gen.ReferenceIdeal.Run
import proofs.«159344_j59270548684945_2_alg».proof.Proof.Gen.ReferenceIdeal.Read
import proofs.«159344_j59270548684945_2_alg».proof.Proof.Gen.Pre_finite_inputs
import proofs.«159344_j59270548684945_2_alg».proof.Proof.ArrayValue
import proofs.«159344_j59270548684945_2_alg».proof.Proof.RefValue
import proofs.«159344_j59270548684945_2_alg».proof.Proof.SegSums
import Idealize.ShloMosaic.Adequacy
import Idealize.ShloMosaic.Init

noncomputable section

namespace Cert.Proof

open Idealize.ShloMosaic Idealize.SL.Sem

/-- The word-level kernel runs and keeps its arguments: its generated frame. -/
theorem frame_k : Cert.frame_Kernel := fun m ρ _ => Cert.Kernel.Gen.frame m ρ

/-- The idealized kernel runs and keeps its arguments: its generated frame. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, the kernel ends at the lane total over 33554432 and the reference at the group total
    over 8388608 of one product stream: equal, every group being counted once per lane. -/
theorem algebraic : Cert.algebraic_KernelIdeal_ReferenceIdeal := by
  intro m ρ m' ρ' _ hagree
  refine ⟨fun c => fun _ => Ideal.div (Ideal.ofBits .f32 0x00000000#32 + Cert.SegLoss.laneTotal (Cert.KernelIdeal.Points.PS m c))
    (Ideal.ofBits .f32 0x4C000000#32), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2]
  funext _
  exact (Cert.SegLoss.mean_eq (Cert.KernelIdeal.Points.PS m c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
